-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128x128 .f32) (main_arg3 : FVec F S128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S50000x1, .f32⟩
  | .hbm, ⟨26, _⟩ => ⟨S256x128, .f32⟩
  | .hbm, ⟨27, _⟩ => ⟨S1x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S128x128_S128x128_S256x128_d0 : Shape.Concatenates [S128x128, S128x128] S256x128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  A graph layer with the mean aggregator, as ONE function of six arrays, and the two laws of the extended reals
  that make its two arrangements agree.

  For node `p` and output feature `c`, with `x` the node features, `ws` and `wn` the two weight matrices, `b`
  the bias, `agg` the per-node sums of incoming features and `deg` the per-node in-degrees:

      out(p, c) = max( ( ∑ₖ x(p,k) · ws(k,c)  +  ∑ₖ (agg(p,k) / max(deg(p), 1)) · wn(k,c) ) + b(c) , 0 ).

  One arrangement divides the aggregate by the clamped degree and multiplies two 128-column matrices; the other
  multiplies the aggregate by the reciprocal of the clamped degree, lays the features and the scaled aggregate side
  by side as 256 columns, and multiplies once by the two weight matrices stacked as 256 rows. They agree because
  (1) a sum over 256 terms is the sum over the first 128 plus the sum over the last 128 — addition of extended reals
  is commutative and associative, so this holds at the infinities too — and (2) `a · (1 / m) = a / m` whenever
  `m ≠ 0`, which a degree clamped below by one always is. Neither law needs a finite operand.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word `0x3F800000` denotes the real number one. -/
theorem one_word : Ideal.ofBits .f32 0x3F800000#32 = 1 := by
  simp [Ideal.ofBits, Ideal.ieee, -EReal.coe_mul]; norm_num

/-- A degree clamped below by one is not zero. -/
theorem clamp_ne_zero (d : EReal) : max d (Ideal.ofBits .f32 0x3F800000#32) ≠ 0 := by
  rw [one_word]
  exact ne_of_gt (lt_of_lt_of_le zero_lt_one (le_max_right d 1))

/-- Multiplying by the reciprocal of a clamped degree is dividing by it: off zero the quotient of extended reals IS
    the product with the inverse, and `1 · m⁻¹ = m⁻¹`. -/
theorem mul_recip_clamp (a d : EReal) :
    a * Ideal.div (Ideal.ofBits .f32 0x3F800000#32) (max d (Ideal.ofBits .f32 0x3F800000#32))
      = Ideal.div a (max d (Ideal.ofBits .f32 0x3F800000#32)) := by
  have hm := clamp_ne_zero d
  unfold Ideal.div
  rw [if_neg hm, if_neg hm, one_word, one_mul]

/-- Column `k` of the first half of 256 side-by-side columns. -/
def lo (k : Fin 128) : Fin 256 := ⟨k.val, by have := k.isLt; omega⟩
/-- Column `k` of the second half: 128 further along. -/
def hi (k : Fin 128) : Fin 256 := ⟨128 + k.val, by have := k.isLt; omega⟩

theorem lo_val (k : Fin 128) : (lo k).val = k.val := rfl
theorem hi_val (k : Fin 128) : (hi k).val = 128 + k.val := rfl

/-- A sum over 256 terms is the sum over the first 128 plus the sum over the last 128. -/
theorem sum_halves (f : Fin 256 → EReal) :
    ∑ k : Fin 256, f k = ∑ k : Fin 128, f (lo k) + ∑ k : Fin 128, f (hi k) :=
  Fin.sum_univ_add (a := 128) (b := 128) f

/-- The mean of the features arriving at node `p`, column `k`: the aggregate over the in-degree clamped below by one
    (a node nothing arrives at has aggregate zero and mean zero). -/
def meanAt (agg : (⟨2, ![50000, 128]⟩ : Shape).Idx → EReal) (deg : (⟨1, ![50000]⟩ : Shape).Idx → EReal)
    (p : Fin 50000) (k : Fin 128) : EReal :=
  Ideal.div (agg (ix2 p k)) (max (deg (ix1 p)) (Ideal.ofBits .f32 0x3F800000#32))

/-- The layer's output at node `p`, feature `c`. -/
def sageAt (x : (⟨2, ![50000, 128]⟩ : Shape).Idx → EReal) (ws wn : (⟨2, ![128, 128]⟩ : Shape).Idx → EReal)
    (b : (⟨1, ![128]⟩ : Shape).Idx → EReal) (agg : (⟨2, ![50000, 128]⟩ : Shape).Idx → EReal)
    (deg : (⟨1, ![50000]⟩ : Shape).Idx → EReal) (p : Fin 50000) (c : Fin 128) : EReal :=
  max ((∑ k : Fin 128, x (ix2 p k) * ws (ix2 k c) + ∑ k : Fin 128, meanAt agg deg p k * wn (ix2 k c)) + b (ix1 c))
    (Ideal.ofBits .f32 0x00000000#32)

/-- The layer's output array. -/
def sage (x : (⟨2, ![50000, 128]⟩ : Shape).Idx → EReal) (ws wn : (⟨2, ![128, 128]⟩ : Shape).Idx → EReal)
    (b : (⟨1, ![128]⟩ : Shape).Idx → EReal) (agg : (⟨2, ![50000, 128]⟩ : Shape).Idx → EReal)
    (deg : (⟨1, ![50000]⟩ : Shape).Idx → EReal) : (⟨2, ![50000, 128]⟩ : Shape).Idx → EReal :=
  fun i => sageAt x ws wn b agg deg (i 0) (i 1)

/-- The side-by-side arrangement at one output entry: with `xh` the 256-column row (features, then scaled
    aggregate) and `w` the 256-row column of stacked weights, the single product is the sum of the two. -/
theorem stacked_eq (xa xb wa wb : Fin 128 → EReal) (xh w : Fin 256 → EReal)
    (hxa : ∀ k, xh (lo k) = xa k) (hxb : ∀ k, xh (hi k) = xb k)
    (hwa : ∀ k, w (lo k) = wa k) (hwb : ∀ k, w (hi k) = wb k) :
    ∑ k : Fin 256, xh k * w k = ∑ k : Fin 128, xa k * wa k + ∑ k : Fin 128, xb k * wb k := by
  rw [sum_halves]
  simp only [hxa, hxb, hwa, hwb]

end Cert.Sage

end
-- ==== Proof.SageRef.lean ====
/-
  The reference program computes the layer's function: read one operation at a time at an output index `(p, c)`, its
  result is `max((∑ₖ x(p,k)·ws(k,c) + ∑ₖ (agg(p,k) / max(deg(p),1))·wn(k,c)) + b(c), 0)`, where `agg` and `deg` are
  the two scatter-added arrays — kept as they are: the statement never looks inside them.
-/
import proofs.«121869_j61220463837398_2_alg».proof.Proof.Gen.ReferenceIdeal.Read
import proofs.«121869_j61220463837398_2_alg».proof.Proof.SageSpec

noncomputable section

namespace Cert.Sage.Ref

open Cert.ReferenceIdeal Cert.ReferenceIdeal.Gen Cert.ReferenceIdeal.Read Idealize.ShloMosaic Idealize.ShloMosaic.ValueIdx

/-- The left factor of either product at output `(p, c)`, term `k`, sits at `(p, k)`. -/
theorem lidx19 (p : Fin 50000) (c k : Fin 128) : lidx_main_v19 (ix2 p c) k = ix2 p k :=
  funext fun a => by match a with | ⟨0, _⟩ => rfl | ⟨1, _⟩ => rfl
theorem lidx20 (p : Fin 50000) (c k : Fin 128) : lidx_main_v20 (ix2 p c) k = ix2 p k :=
  funext fun a => by match a with | ⟨0, _⟩ => rfl | ⟨1, _⟩ => rfl
/-- The right factor sits at `(k, c)`. -/
theorem ridx19 (p : Fin 50000) (c k : Fin 128) : ridx_main_v19 (ix2 p c) k = ix2 k c :=
  funext fun a => by match a with | ⟨0, _⟩ => rfl | ⟨1, _⟩ => rfl
theorem ridx20 (p : Fin 50000) (c k : Fin 128) : ridx_main_v20 (ix2 p c) k = ix2 k c :=
  funext fun a => by match a with | ⟨0, _⟩ => rfl | ⟨1, _⟩ => rfl
/-- The bias row broadcast over the nodes reads the bias at the column. -/
theorem idx23 (p : Fin 50000) (c : Fin 128) : idx_main_v23 (ix2 p c) = ix2 (0 : Fin 1) c :=
  funext fun a => by match a with | ⟨0, _⟩ => rfl | ⟨1, _⟩ => rfl
theorem idx22 (c : Fin 128) : idx_main_v22 (ix2 (0 : Fin 1) c) = ix1 c :=
  funext fun a => by match a with | ⟨0, _⟩ => rfl
/-- The clamped degree broadcast over the columns reads the degree at the node. -/
theorem idx17 (p : Fin 50000) (k : Fin 128) : idx_main_v17 (ix2 p k) = ix2 p (0 : Fin 1) :=
  funext fun a => by match a with | ⟨0, _⟩ => rfl | ⟨1, _⟩ => rfl
theorem idx16 (p : Fin 50000) : idx_main_v16 (ix2 p (0 : Fin 1)) = ix1 p :=
  funext fun a => by match a with | ⟨0, _⟩ => rfl

/-- The reference's result is the layer's function of the four float arguments, the aggregate and the degrees. -/
theorem result_eq (x0 : (⟨S50000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S600000, .i32⟩ : BufTy).Contents (Elt Ideal)) :
    val_main_v25 (F := Ideal) x0 x1 x2 x3 x4 x5
      = Cert.Sage.sage x0 x1 x2 x3 (val_main_v9 (F := Ideal) x0 x4 x5) (val_main_v13 (F := Ideal) x5) := by
  funext i
  obtain ⟨p, c, rfl⟩ : ∃ (p : Fin 50000) (c : Fin 128), i = ix2 p c := ⟨i 0, i 1, eq_ix2 i⟩
  rw [val_main_v25_apply, val_main_v24_apply, val_main_v21_apply, val_main_v19_apply, val_main_v20_apply,
    val_main_v23_apply, val_main_v22_apply, val_main_call0_v0_apply, val_main_call0_cst_apply]
  simp only [lidx19, lidx20, ridx19, ridx20, idx23, idx22, val_main_v18_apply, val_main_v17_apply, idx17,
    val_main_v16_apply, idx16, val_main_v15_apply, val_main_v14_apply, val_main_cst_3_apply,
    Ideal.maximumf_def, Ideal.addf_def, Ideal.hostDivf_def, Ideal.ofBits_def]
  rfl

end Cert.Sage.Ref

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.SagePayload.lean ====
/-
  What the kernel body computes from one block of rows, entry by entry.

  The body holds a block of 5000 feature rows `x`, the matching rows of the aggregate `a` and of the degree column
  `d`, all 256 rows of the stacked weights `w` and the bias row `b`. It scales each aggregate row by `1 / max(d, 1)`,
  lays features and scaled aggregate side by side (256 columns), multiplies by `w` into a zero accumulator, adds
  the bias and clamps below by zero. At row `p`, column `c` of the block that is

      max( ( ∑ₖ x(p,k)·w(k,c) + ∑ₖ (a(p,k) / max(d(p),1))·w(128+k,c) ) + b(c) , 0 ):

  the product over 256 columns splits into its two halves, and multiplying by the reciprocal of the clamped degree
  is dividing by it (both laws in the specification module).
-/
import proofs.«121869_j61220463837398_2_alg».proof.Proof.Gen.KernelIdeal.Skeleton
import proofs.«121869_j61220463837398_2_alg».proof.Proof.SageSpec
import proofs.«121869_j61220463837398_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Body

open Cert.KernelIdeal Cert.KernelIdeal.Gen Idealize.ShloMosaic Idealize.ShloMosaic.ValueIdx Cert.Sage

/-- The body's one matrix product: [5000, 256] by [256, 128], contracting the 256. -/
abbrev D : DotDims S5000x256 S256x128 S5000x128 := dot_S5000x256_S256x128_S5000x128_1_0_0_1_n_n

/-! ## The product at an output entry -/

theorem lhs_row (i : S5000x128.Idx) (q : D.contr.Idx) : (D.lhsIdx i q 0).val = (i 0).val := by
  unfold DotDims.lhsIdx
  rw [dif_neg (show ¬(0 : Fin S5000x256.rank) ∈ D.lhsBatch by decide),
    dif_pos (show (0 : Fin S5000x256.rank) ∈ D.lhsNonContracting by decide)]
  rfl
theorem lhs_col (i : S5000x128.Idx) (q : D.contr.Idx) : (D.lhsIdx i q 1).val = (q ⟨0, by decide⟩).val :=
  D.lhsIdx_val_of_single rfl i q
theorem rhs_row (i : S5000x128.Idx) (q : D.contr.Idx) : (D.rhsIdx i q 0).val = (q ⟨0, by decide⟩).val :=
  D.rhsIdx_val_of_single rfl i q
theorem rhs_col (i : S5000x128.Idx) (q : D.contr.Idx) : (D.rhsIdx i q 1).val = (i 1).val := by
  unfold DotDims.rhsIdx
  rw [dif_neg (show ¬(1 : Fin S256x128.rank) ∈ D.rhsBatch by decide),
    dif_pos (show (1 : Fin S256x128.rank) ∈ D.rhsNonContracting by decide)]
  rfl

/-- Into a zero accumulator the product at `(p, c)` is `∑ₖ xh(p,k) · w(k,c)` over the 256 contracted columns. -/
theorem matmul_at (xh : FVec Ideal S5000x256 .f32) (w : FVec Ideal S256x128 .f32) (p : Fin 5000) (c : Fin 128) :
    FloatOps.matmul D (some .fp32) xh w (constant (F := Ideal) S5000x128 .f32 0x00000000#32) (ix2 p c)
      = ∑ k : Fin 256, xh (ix2 p k) * w (ix2 k c) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p c) ((contrEquiv1 D 256 rfl rfl).symm k) = ix2 p k := funext fun a => Fin.ext (by
    match a with
    | ⟨0, _⟩ => exact lhs_row _ _
    | ⟨1, _⟩ => exact (lhs_col _ _).trans hk)
  have er : D.rhsIdx (ix2 p c) ((contrEquiv1 D 256 rfl rfl).symm k) = ix2 k c := funext fun a => Fin.ext (by
    match a with
    | ⟨0, _⟩ => exact (rhs_row _ _).trans hk
    | ⟨1, _⟩ => exact rhs_col _ _)
  rw [el, er]

/-! ## The scaled aggregate at an entry -/

/-- Row `p` of the aggregate block times the reciprocal of that row's clamped degree. -/
theorem scaled_at (v1 : Vec Ideal S5000x128 .f32) (v3 : Vec Ideal S5000x1 .f32) (p : Fin 5000) (k : Fin 128) :
    mulf (shapeCast S5000x128 v1 shapeCasts_S5000x128_S5000x128)
        (broadcastTo S5000x128
          (divf (broadcast S5000x1 (FloatOps.ofBits (F := Ideal) .f32 0x3F800000#32))
            (maximumf (shapeCast S5000x1 v3 shapeCasts_S5000x1_S5000x1)
              (broadcast S5000x1 (FloatOps.ofBits (F := Ideal) .f32 0x3F800000#32))))
          broadcasts_S5000x1_S5000x128) (ix2 p k)
      = v1 (ix2 p k) * Ideal.div (Ideal.ofBits .f32 0x3F800000#32)
          (max (v3 (ix2 p (0 : Fin 1))) (Ideal.ofBits .f32 0x3F800000#32)) := by
  rw [shapeCast_self, shapeCast_self, mulf_apply, Cert.Layout.broadcastTo_a1_ab_apply]
  rfl

/-! ## The whole payload at an entry -/

/-- The body's stored value at row `p`, column `c` of its block. -/
theorem pay_at (v0 v1 : Vec Ideal S5000x128 .f32) (v3 : Vec Ideal S5000x1 .f32) (v12 : Vec Ideal S256x128 .f32)
    (v15 : Vec Ideal S1x128 .f32) (p : Fin 5000) (c : Fin 128) :
    k0_pay1 (F := Ideal) v0 v1 v3 v12 v15 (ix2 p c)
      = max ((∑ k : Fin 128, v0 (ix2 p k) * v12 (ix2 (lo k) c)
            + ∑ k : Fin 128, Ideal.div (v1 (ix2 p k)) (max (v3 (ix2 p (0 : Fin 1))) (Ideal.ofBits .f32 0x3F800000#32))
                * v12 (ix2 (hi k) c))
          + v15 (ix2 (0 : Fin 1) c)) (Ideal.ofBits .f32 0x00000000#32) := by
  unfold k0_pay1
  rw [shapeCast_self v12, shapeCast_self v15, maximumf_apply, addf_apply, broadcastTo_1b_ab_apply]
  refine congrArg (fun s => max (s + v15 (ix2 (0 : Fin 1) c)) (Ideal.ofBits .f32 0x00000000#32)) ?_
  refine (matmul_at _ v12 p c).trans ?_
  rw [sum_halves]
  refine congrArg₂ (· + ·) (Finset.sum_congr rfl fun k _ => ?_) (Finset.sum_congr rfl fun k _ => ?_)
  · refine congrArg (· * v12 (ix2 (lo k) c)) ?_
    exact concatenate_pair_apply_left (t := S5000x256) (s₁ := S5000x128) (s₂ := S5000x128) (1 : Fin 2) v0 _
      concatenates_S5000x128_S5000x128_S5000x256_d1 (ix2 p (lo k)) rfl
      (ix2 p k) (fun b => by match b with | ⟨0, _⟩ => rfl | ⟨1, _⟩ => rfl)
  · refine congrArg (· * v12 (ix2 (hi k) c)) ?_
    refine (concatenate_pair_apply_right (t := S5000x256) (s₁ := S5000x128) (s₂ := S5000x128) (1 : Fin 2) v0 _
      concatenates_S5000x128_S5000x128_S5000x256_d1 (ix2 p (hi k)) rfl rfl
      (ix2 p k) (fun b hb => by match b with | ⟨0, _⟩ => rfl | ⟨1, _⟩ => exact absurd rfl hb) ?_).trans ?_
    · show k.val + 128 = 128 + k.val
      omega
    · exact (scaled_at v1 v3 p k).trans (mul_recip_clamp _ _)

end Cert.Sage.Body

end
-- ==== Proof.SageHost.lean ====
/-
  The arrays the kernel's grid finds when it starts, read where the blocks read them.

  Before the grid runs, the program gathers the source rows, scatter-adds them (and a vector of ones) by destination
  into the aggregate `agg` and the degrees `deg`, keeps `deg` as a one-column matrix, stacks the two weight matrices
  as 256 rows and reshapes the bias to one row. The aggregate and the degrees are named and never opened; the other
  three are re-layings, read here at an index: the degree column at `(r, 0)` is `deg r`; row `k` of the stacked
  weights is row `k` of the first matrix, row `128 + k` is row `k` of the second; the bias row at `(0, c)` is `b c`.
-/
import proofs.«121869_j61220463837398_2_alg».proof.Proof.Gen.KernelIdeal.Frame
import proofs.«121869_j61220463837398_2_alg».proof.Proof.SageSpec
import Idealize.ShloMosaic.Lib.Pipeline.Value
import Idealize.ShloMosaic.Lib.ValueIdx
import Idealize.ShloMosaic.Lib.ValueLayout
import Idealize.ShloMosaic.Lib.StableHlo.Run

noncomputable section

namespace Cert.Sage.Host

open Cert.KernelIdeal Cert.KernelIdeal.Gen Idealize.ShloMosaic Idealize.ShloMosaic.TcCoe Idealize.SL.Sem
open Idealize.ShloMosaic.ValueIdx Idealize.ShloMosaic.StableHlo Cert.Sage

/-- The aggregate: the source rows of `x0` (indices `x4`, a negative one wrapped once) summed by destination `x5`. -/
def agg (x0 : (⟨S50000x128, .f32⟩ : BufTy).Contents (Elt Ideal)) (x4 x5 : (⟨S600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 x5)
    (Host.gather gather_S50000x128_S600000x1_S600000x128_1_0_n_n_0_1_1128 x0
      (broadcastInDim S600000x1 ![0] bcast_S600000_S600000x1_0
        (select (cmpi .slt x4 (broadcastInDim S600000 ![] bcast_S_S600000 (constantI S_ 32 0#32)))
          (addi x4 (broadcastInDim S600000 ![] bcast_S_S600000 (constantI S_ 32 50000#32))) x4)))

/-- The in-degrees: ones summed by destination `x5`. -/
def deg (x5 : (⟨S600000, .i32⟩ : BufTy).Contents (Elt Ideal)) : (⟨S50000, .f32⟩ : BufTy).Contents (Elt Ideal) :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 x5)
    (broadcastInDim S600000 ![] bcast_S_S600000 (constant (F := Ideal) S_ .f32 0x3F800000#32))

variable (m : (ℓ : Loc nD τ sig) → Buf (Elt Ideal) ℓ)

/-- The grid's second operand is the aggregate of the launch arrays. -/
theorem V_agg (c : Dev nD) :
    (V m c main_v9 : S50000x128.Idx → EReal)
      = agg (m ((c : Thread nD τ).loc main_arg0)) (m ((c : Thread nD τ).loc main_arg4)) (m ((c : Thread nD τ).loc main_arg5)) := by
  dsimp only [Gen.V, Gen.hostOps0]
  after_results
  rfl

/-- The grid's third operand, a column, holds the degree of node `r` at `(r, 0)`. -/
theorem V_deg_at (c : Dev nD) (r : Fin 50000) :
    (V m c main_v14 : S50000x1.Idx → EReal) (ix2 r (0 : Fin 1)) = deg (m ((c : Thread nD τ).loc main_arg5)) (ix1 r) := by
  have e : (V m c main_v14 : S50000x1.Idx → EReal)
      = broadcastInDim S50000x1 ![0] bcast_S50000_S50000x1_0 (deg (m ((c : Thread nD τ).loc main_arg5))) := by
    dsimp only [Gen.V, Gen.hostOps0]
    after_results
    rfl
  rw [e]
  exact broadcastInDim_apply _ bcast_S50000_S50000x1_0 _ (ix2 r (0 : Fin 1)) (ix1 r) (fun a => match a with
    | ⟨0, _⟩ => by show r.val = if (50000 : Nat) = 1 then 0 else r.val; rw [if_neg (by decide)])

/-- The stacked weights are the two matrices one above the other. -/
theorem V_w_eq (c : Dev nD) :
    (V m c main_v15 : S256x128.Idx → EReal)
      = concatenate S256x128 0 [⟨S128x128, m ((c : Thread nD τ).loc main_arg1)⟩, ⟨S128x128, m ((c : Thread nD τ).loc main_arg2)⟩]
          concatenates_S128x128_S128x128_S256x128_d0 := by
  dsimp only [Gen.V, Gen.hostOps0]
  after_results

/-- Row `k` of the stacked weights is row `k` of the first matrix. -/
theorem V_w_lo (c : Dev nD) (k j : Fin 128) :
    (V m c main_v15 : S256x128.Idx → EReal) (ix2 (lo k) j) = m ((c : Thread nD τ).loc main_arg1) (ix2 k j) := by
  rw [V_w_eq]
  exact concatenate_pair_apply_left (t := S256x128) (s₁ := S128x128) (s₂ := S128x128) (0 : Fin 2)
    (m ((c : Thread nD τ).loc main_arg1)) (m ((c : Thread nD τ).loc main_arg2))
    concatenates_S128x128_S128x128_S256x128_d0 (ix2 (lo k) j) rfl
    (ix2 k j) (fun b => by match b with | ⟨0, _⟩ => rfl | ⟨1, _⟩ => rfl)

/-- Row `128 + k` of the stacked weights is row `k` of the second matrix. -/
theorem V_w_hi (c : Dev nD) (k j : Fin 128) :
    (V m c main_v15 : S256x128.Idx → EReal) (ix2 (hi k) j) = m ((c : Thread nD τ).loc main_arg2) (ix2 k j) := by
  rw [V_w_eq]
  refine concatenate_pair_apply_right (t := S256x128) (s₁ := S128x128) (s₂ := S128x128) (0 : Fin 2)
    (m ((c : Thread nD τ).loc main_arg1)) (m ((c : Thread nD τ).loc main_arg2))
    concatenates_S128x128_S128x128_S256x128_d0 (ix2 (hi k) j) rfl rfl
    (ix2 k j) (fun b hb => by match b with | ⟨0, _⟩ => exact absurd rfl hb | ⟨1, _⟩ => rfl) ?_
  show k.val + 128 = 128 + k.val
  omega

/-- The bias, reshaped to one row, holds `b j` at `(0, j)`. -/
theorem V_b_at (c : Dev nD) (j : Fin 128) :
    (V m c main_v16 : S1x128.Idx → EReal) (ix2 (0 : Fin 1) j) = m ((c : Thread nD τ).loc main_arg3) (ix1 j) := by
  have e : (V m c main_v16 : S1x128.Idx → EReal)
      = shapeCast S1x128 (m ((c : Thread nD τ).loc main_arg3)) shapeCasts_S128_S1x128 := by
    dsimp only [Gen.V, Gen.hostOps0]
    after_results
    rfl
  rw [e]
  exact shapeCast_a_1a_apply _ shapeCasts_S128_S1x128 (0 : Fin 1) j

end Cert.Sage.Host

end
-- ==== Proof.SageBlocks.lean ====
/-
  From blocks to the whole output array.

  The grid has ten points; point `t` works on rows `5000·t … 5000·t + 4999`: it reads those rows of the features, of
  the aggregate and of the degree column, all of the stacked weights and of the bias row, and writes those rows of the
  output. So what point `t` writes back is rows `5000·t …` of ONE whole-array function — the layer's function of the
  launch arrays — and since the ten row blocks tile the 50000 rows (row `r` lies in block `r / 5000`), the output
  array ends holding that function everywhere.
-/
import proofs.«121869_j61220463837398_2_alg».proof.Proof.Gen.KernelIdeal.Value
import proofs.«121869_j61220463837398_2_alg».proof.Proof.SagePayload
import proofs.«121869_j61220463837398_2_alg».proof.Proof.SageHost

noncomputable section

namespace Cert.Sage.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Sage Cert.Sage.Host Cert.Sage.Body

variable (m : (ℓ : Loc nD τ sig) → Buf (Elt Ideal) ℓ) (ρ : Dev nD → PrngReg)

/-- The layer's function of the launch arrays on core `c`. -/
def out (c : Dev nD) : S50000x128.Idx → EReal :=
  sage (m ((c : Thread nD τ).loc main_arg0)) (m ((c : Thread nD τ).loc main_arg1)) (m ((c : Thread nD τ).loc main_arg2))
    (m ((c : Thread nD τ).loc main_arg3))
    (agg (m ((c : Thread nD τ).loc main_arg0)) (m ((c : Thread nD τ).loc main_arg4)) (m ((c : Thread nD τ).loc main_arg5)))
    (deg (m ((c : Thread nD τ).loc main_arg5)))

theorem zero_offsets : (![0, 0] : Fin 2 → Nat) = fun _ => 0 := funext fun a => by fin_cases a <;> rfl

/-- The index maps over the ten points: the three row-blocked inputs move with the output's row block and sit in
    column block zero; the weights and the bias are always block zero; the output's row block is at most nine. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto : ∀ q : Fin 10, ∃ t : Fin cfg0.N, win0_5.index t = ![q.val, 0] :=
  (by decide +kernel : ∀ q : Fin 10, ∃ t : Fin grid0.N, win0_5.index t = ![q.val, 0])

/-! ## Each input block read where the output's rows say -/

/-- Row `p` of point `t`'s feature block is row `r = 5000·t + p` of the features. -/
theorem read_x (c : Dev nD) (t : Fin cfg0.N) (p : Fin 5000) (k : Fin 128) (r : Fin 50000)
    (hr : r.val = win0_5.index t (0 : Fin 2) * 5000 + p.val) :
    iblk m c 0 t (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of point `t`'s aggregate block is row `r` of the aggregate. -/
theorem read_agg (c : Dev nD) (t : Fin cfg0.N) (p : Fin 5000) (k : Fin 128) (r : Fin 50000)
    (hr : r.val = win0_5.index t (0 : Fin 2) * 5000 + p.val) :
    iblk m c 1 t (ix2 p k)
      = agg (m ((c : Thread nD τ).loc main_arg0)) (m ((c : Thread nD τ).loc main_arg4)) (m ((c : Thread nD τ).loc main_arg5)) (ix2 r k) := by
  obtain ⟨-, -, e0, e1, -⟩ := idx_facts t
  show (V m c main_v9 : S50000x128.Idx → EReal) (((cfg0.win 1).blk t).view.emb (ix2 p k)) = _
  rw [V_agg]
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Row `p` of point `t`'s degree block is the degree of node `r`. -/
theorem read_deg (c : Dev nD) (t : Fin cfg0.N) (p : Fin 5000) (r : Fin 50000)
    (hr : r.val = win0_5.index t (0 : Fin 2) * 5000 + p.val) :
    iblk m c 2 t (ix2 p (0 : Fin 1)) = deg (m ((c : Thread nD τ).loc main_arg5)) (ix1 r) := by
  obtain ⟨-, -, -, -, e0, e1, -⟩ := idx_facts t
  rw [← V_deg_at m c r]
  show (V m c main_v14 : S50000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- Every point holds all 256 rows of the stacked weights: the first 128 are the first matrix, -/
theorem read_w_lo (c : Dev nD) (t : Fin cfg0.N) (k j : Fin 128) :
    iblk m c 3 t (ix2 (lo k) j) = m ((c : Thread nD τ).loc main_arg1) (ix2 k j) := by
  obtain ⟨-, -, -, -, -, -, e0, e1, -⟩ := idx_facts t
  rw [← V_w_lo m c k j]
  show (V m c main_v15 : S256x128.Idx → EReal) (((cfg0.win 3).blk t).view.emb (ix2 (lo k) j)) = _
  refine congrArg _ (funext fun a => Fin.ext ?_)
  match a with
  | ⟨0, _⟩ => show win0_3.index t (0 : Fin 2) * 256 + 1 * (lo k).val = (lo k).val; omega
  | ⟨1, _⟩ => show win0_3.index t (1 : Fin 2) * 128 + 1 * j.val = j.val; omega

/-- the last 128 the second. -/
theorem read_w_hi (c : Dev nD) (t : Fin cfg0.N) (k j : Fin 128) :
    iblk m c 3 t (ix2 (hi k) j) = m ((c : Thread nD τ).loc main_arg2) (ix2 k j) := by
  obtain ⟨-, -, -, -, -, -, e0, e1, -⟩ := idx_facts t
  rw [← V_w_hi m c k j]
  show (V m c main_v15 : S256x128.Idx → EReal) (((cfg0.win 3).blk t).view.emb (ix2 (hi k) j)) = _
  refine congrArg _ (funext fun a => Fin.ext ?_)
  match a with
  | ⟨0, _⟩ => show win0_3.index t (0 : Fin 2) * 256 + 1 * (hi k).val = (hi k).val; omega
  | ⟨1, _⟩ => show win0_3.index t (1 : Fin 2) * 128 + 1 * j.val = j.val; omega

/-- Every point holds the bias row. -/
theorem read_b (c : Dev nD) (t : Fin cfg0.N) (j : Fin 128) :
    iblk m c 4 t (ix2 (0 : Fin 1) j) = m ((c : Thread nD τ).loc main_arg3) (ix1 j) := by
  obtain ⟨-, -, -, -, -, -, -, -, e0, e1, -⟩ := idx_facts t
  rw [← V_b_at m c j]
  show (V m c main_v16 : S1x128.Idx → EReal) (((cfg0.win 4).blk t).view.emb (ix2 (0 : Fin 1) j)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- Entry `(p, j)` of point `t`'s output block sits at `(r, j)` of the output array. -/
theorem emb_out (t : Fin cfg0.N) (p : Fin 5000) (j : Fin 128) (r : Fin 50000)
    (hr : r.val = win0_5.index t (0 : Fin 2) * 5000 + p.val) :
    ((cfg0.win 5).blk t).view.emb (ix2 p j) = (ix2 r j : S50000x128.Idx) := by
  obtain ⟨-, -, -, -, -, -, -, -, -, -, e1, -⟩ := idx_facts t
  refine funext fun a => Fin.ext ?_
  match a with
  | ⟨0, _⟩ => show win0_5.index t (0 : Fin 2) * 5000 + 1 * p.val = r.val; omega
  | ⟨1, _⟩ => show win0_5.index t (1 : Fin 2) * 128 + 1 * j.val = j.val; omega

/-! ## What a point writes back, the cover, the array -/

/-- WHAT POINT `t` WRITES BACK is its row block of the layer's function of the launch arrays. -/
theorem flushed_eq (c : Dev nD) (t : Fin cfg0.N) :
    (dats m 0 c).flushed 5 t = ((cfg0.win 5).blk t).view.read (Elt Ideal) (out m c) := by
  rw [Cert.KernelIdeal.Value.flushed5]
  unfold out0_5
  rw [View.canon_unit_zero zero_offsets]
  simp only [View.ld_unit_zero (S := S5000x128) zero_offsets, View.ld_unit_zero (S := S5000x1) zero_offsets,
    View.ld_unit_zero (S := S256x128) zero_offsets, View.ld_unit_zero (S := S1x128) zero_offsets]
  funext y
  obtain ⟨p, j, rfl⟩ : ∃ (p : Fin 5000) (j : Fin 128), y = ix2 p j := ⟨y 0, y 1, eq_ix2 y⟩
  have hb : win0_5.index t (0 : Fin 2) ≤ 9 := (idx_facts t).2.2.2.2.2.2.2.2.2.2.2
  have hp : p.val < 5000 := p.isLt
  let r : Fin 50000 := ⟨win0_5.index t (0 : Fin 2) * 5000 + p.val, by omega⟩
  have hr : r.val = win0_5.index t (0 : Fin 2) * 5000 + p.val := rfl
  show k0_pay1 (F := Ideal) (iblk m c 0 t) (iblk m c 1 t) (iblk m c 2 t) (iblk m c 3 t) (iblk m c 4 t) (ix2 p j)
    = out m c (((cfg0.win 5).blk t).view.emb (ix2 p j))
  rw [emb_out t p j r hr]
  refine (pay_at (iblk m c 0 t) (iblk m c 1 t) (iblk m c 2 t) (iblk m c 3 t) (iblk m c 4 t) p j).trans ?_
  simp only [read_x m c t p _ r hr, read_agg m c t p _ r hr, read_deg m c t p r hr, read_w_lo m c t _ j,
    read_w_hi m c t _ j, read_b m c t j]
  rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- The ten row blocks tile the array: row `r` lies in block `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE OUTPUT ARRAY after the run is the layer's function of the launch arrays. -/
theorem final (c : Dev nD) : (dats m 0 c).arrAt 5 cfg0.N = out m c :=
  (dats m 0 c).arrAt_eq_of_cover 5 (out m c) (fun t _ => flushed_eq m c t) cover

/-- The kernel's run: it terminates with the result at the layer's function of the launch arrays, the arguments kept. -/
theorem run : θ_run defs (onTc (τ := τ) (main (F := Ideal))) ⟨m, fun _ => 0, ρ⟩ fun r => ∀ c : Dev nD,
      r.2.mem ((c : Thread nD τ).loc main_v17) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Sage.Blocks

end
-- ==== Proof.lean ====
/-
  A graph layer with the mean aggregator: the kernel and its reference compute the same extended reals.

  Both programs first gather the source rows of the node features `x` and scatter-add them, and a vector of ones,
  by destination: the aggregate `agg` and the in-degrees `deg`. Those operations are the same in both, so they are
  carried as two named arrays and never opened. The reference then forms
  `max((x·Wₛ + (agg / max(deg,1))·Wₙ) + b, 0)`. The kernel, on ten blocks of 5000 rows, scales the aggregate rows by
  `1 / max(deg,1)`, lays features and scaled aggregate side by side, multiplies once by `Wₛ` stacked over `Wₙ`, adds
  `b` and clamps at zero. The two agree entry by entry: a 256-term sum is the sum of its two halves, and a product
  with the reciprocal of a clamped degree (never zero) is the quotient by it — laws of the extended reals that need
  no finite operand, so the precondition is never opened.

  The frames are the generated ones (the reference's is its generated run with the result dropped); nothing was
  rewritten when the kernel was idealized, so that claim is trivial.
-/
import proofs.«121869_j61220463837398_2_alg».proof.Defs
import proofs.«121869_j61220463837398_2_alg».proof.Proof.Gen.Kernel
import proofs.«121869_j61220463837398_2_alg».proof.Proof.Gen.Kernel.Skeleton
import proofs.«121869_j61220463837398_2_alg».proof.Proof.Gen.Kernel.Launch
import proofs.«121869_j61220463837398_2_alg».proof.Proof.Gen.Kernel.Points
import proofs.«121869_j61220463837398_2_alg».proof.Proof.Gen.Kernel.Frame
import proofs.«121869_j61220463837398_2_alg».proof.Proof.Gen.KernelIdeal
import proofs.«121869_j61220463837398_2_alg».proof.Proof.Gen.KernelIdeal.Skeleton
import proofs.«121869_j61220463837398_2_alg».proof.Proof.Gen.KernelIdeal.Launch
import proofs.«121869_j61220463837398_2_alg».proof.Proof.Gen.KernelIdeal.Points
import proofs.«121869_j61220463837398_2_alg».proof.Proof.Gen.KernelIdeal.Frame
import proofs.«121869_j61220463837398_2_alg».proof.Proof.Gen.ReferenceIdeal
import proofs.«121869_j61220463837398_2_alg».proof.Proof.Gen.Pre_finite_inputs
import proofs.«121869_j61220463837398_2_alg».proof.Proof.Gen.KernelIdeal.Value
import proofs.«121869_j61220463837398_2_alg».proof.Proof.Gen.ReferenceIdeal.Run
import proofs.«121869_j61220463837398_2_alg».proof.Proof.Gen.ReferenceIdeal.Read
import proofs.«121869_j61220463837398_2_alg».proof.Proof.SageRef
import proofs.«121869_j61220463837398_2_alg».proof.Proof.SageBlocks
import Idealize.ShloMosaic.Adequacy
import Idealize.ShloMosaic.Init

noncomputable section

namespace Cert.Proof

open Idealize.ShloMosaic Idealize.ShloMosaic.TcCoe Idealize.SL.Sem

/-- The aggregate is the same array in both programs: the same gather and scatter-add of the same arguments. -/
theorem agg_same (x0 : (⟨Cert.KernelIdeal.S50000x128, .f32⟩ : BufTy).Contents (Elt Ideal))
    (x4 x5 : (⟨Cert.KernelIdeal.S600000, .i32⟩ : BufTy).Contents (Elt Ideal)) :
    Cert.ReferenceIdeal.Read.val_main_v9 (F := Ideal) x0 x4 x5 = Cert.Sage.Host.agg x0 x4 x5 := rfl

/-- So are the in-degrees. -/
theorem deg_same (x5 : (⟨Cert.KernelIdeal.S600000, .i32⟩ : BufTy).Contents (Elt Ideal)) :
    Cert.ReferenceIdeal.Read.val_main_v13 (F := Ideal) x5 = Cert.Sage.Host.deg x5 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- Both runs end with the result at the layer's function of the (agreeing) arguments. -/
theorem algebraic : Cert.algebraic_KernelIdeal_ReferenceIdeal := by
  intro m ρ m' ρ' _ hagree
  refine ⟨fun c => Cert.Sage.Blocks.out m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Sage.Ref.result_eq, agg_same, deg_same,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
